-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S3x512x512 : Shape := ⟨3, ![3, 512, 512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S3x512x512 : S_.BroadcastsInDim S3x512x512 (![] : Fin 0 → Fin S3x512x512.rank)
  reducesTo_S3x512x512_S_d0_1_2 : S3x512x512.ReducesTo [0, 1, 2] S_

variable [Facts]

def fn {F : FTy → Type} [FloatOps F] (main_arg0 : FVec F S8x2048x512 .f32) (main_arg1 : FVec F S3x512x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S3x512x512 .f32 := Host.absf main_arg1
  let main_cst_0 : FVec F S_ .f32 := constant S_ .f32 0x7F800000#32
  let main_v5 : FVec F S3x512x512 .f32 := broadcastInDim S3x512x512 ![] bcast_S_S3x512x512 main_cst_0
  let main_v6 : IVec S3x512x512 1 := cmpf .olt main_v4 main_v5
  let main_c_1 : IVec S_ 1 := constantI S_ 1 1#1
  let main_v7 : IVec S_ 1 := (fun x v => Host.reduce IntOp.andi x v reducesTo_S3x512x512_S_d0_1_2 h_S_) main_v6 main_c_1
  let main_v8 : IVec S_ 1 := andi main_v3 main_v7
  main_v8
-- ==== Kernel.lean ====
abbrev S8x2048x512 : Shape := ⟨3, ![8, 2048, 512]⟩
abbrev S3x512x512 : Shape := ⟨3, ![3, 512, 512]⟩
abbrev S1x2048x512 : Shape := ⟨3, ![1, 2048, 512]⟩
abbrev S1x512x512 : Shape := ⟨3, ![1, 512, 512]⟩
abbrev S2048x512 : Shape := ⟨2, ![2048, 512]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x512, .f32⟩
  | .hbm, ⟨1, _⟩ => ⟨S3x512x512, .f32⟩
  | .hbm, ⟨2, _⟩ => ⟨S8x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S3x512x512, .f32⟩
  | .local _ .vmem, ⟨3, _⟩ => ⟨S1x512x512, .f32⟩
  | .local _ .vmem, ⟨4, _⟩ => ⟨S1x512x512, .f32⟩
  | .local _ .vmem, ⟨5, _⟩ => ⟨S2048x512, .bf16⟩
  | .local _ .vmem, ⟨6, _⟩ => ⟨S2048x512, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 3 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S3x512x512_S1x512x512_1_0_0 : ∀ a, (![1, 0, 0] : Fin 3 → Nat) a + S1x512x512.size a ≤ S3x512x512.size a
  h_S1x512x512 : 0 < S1x512x512.numel
  shapeCasts_S1x512x512_S512x512 : S1x512x512.ShapeCasts S512x512
  inb_S3x512x512_S1x512x512_2_0_0 : ∀ a, (![2, 0, 0] : Fin 3 → Nat) a + S1x512x512.size a ≤ S3x512x512.size a
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S3x512x512_S1x512x512_0_0_0 : ∀ a, (![0, 0, 0] : Fin 3 → Nat) a + S1x512x512.size a ≤ S3x512x512.size a
  reduces_S512x2048_S512 : S512x2048.Reduces [1] S512
  shapeCasts_S512_S512x1 : S512.ShapeCasts S512x1
  broadcasts_S512x1_S512x2048 : S512x1.Broadcasts S512x2048
  inb_S1x512x512_S1x512x512_0_0_0 : ∀ a, (![0, 0, 0] : Fin 3 → Nat) a + S1x512x512.size a ≤ S1x512x512.size a
  shapeCasts_S512x512_S1x512x512 : S512x512.ShapeCasts S1x512x512
  dot_S2048x512_S512x512_S2048x512_1_0_0_1_n_n_wf : DotDims.WF S2048x512 S512x512 S2048x512 [1] [0] [0] [1] [] []
  dot_S512x512_S512x512_S512x512_1_0_0_1_n_n_wf : DotDims.WF S512x512 S512x512 S512x512 [1] [0] [0] [1] [] []
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .f32 = 32 ∨ (Rect.block (s := S8x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x512x512.size a ≤ S3x512x512.size a
  hwx0_1 : ∀ i : grid0.Coords, EltTy.bits .f32 = 32 ∨ (Rect.block (s := S3x512x512) S3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x2048x512.size a
  hwx0_2 : ∀ i : grid0.Coords, EltTy.bits .f32 = 32 ∨ (Rect.block (s := S8x2048x512) S1x512x512.size (cc0_transform_2 i) (hinb0_2 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S3x512x512 : Shape := ⟨3, ![3, 512, 512]⟩
abbrev S1x512x512 : Shape := ⟨3, ![1, 512, 512]⟩
abbrev S512x512 : Shape := ⟨2, ![512, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S3x512x512, .f32⟩
  | .hbm, ⟨2, _⟩ => ⟨S1x512x512, .f32⟩
  | .hbm, ⟨3, _⟩ => ⟨S512x512, .f32⟩
  | .hbm, ⟨4, _⟩ => ⟨S8x2048x512, .f32⟩
  | .hbm, ⟨5, _⟩ => ⟨S1x512x512, .f32⟩
  | .hbm, ⟨6, _⟩ => ⟨S512x512, .f32⟩
  | .hbm, ⟨7, _⟩ => ⟨S8x2048x512, .f32⟩
  | .hbm, ⟨8, _⟩ => ⟨S1x512x512, .f32⟩
  | .hbm, ⟨9, _⟩ => ⟨S512x512, .f32⟩
  | .hbm, ⟨10, _⟩ => ⟨S8x2048x512, .f32⟩
  | .hbm, ⟨11, _⟩ => ⟨S8x2048x2048, .f32⟩
  | .hbm, ⟨12, _⟩ => ⟨S_, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  slices_S3x512x512_S1x512x512_0_0_0 : S3x512x512.Slices ![0, 0, 0] S1x512x512
  shapeCasts_S1x512x512_S512x512 : S1x512x512.ShapeCasts S512x512
  slices_S3x512x512_S1x512x512_1_0_0 : S3x512x512.Slices ![1, 0, 0] S1x512x512
  slices_S3x512x512_S1x512x512_2_0_0 : S3x512x512.Slices ![2, 0, 0] S1x512x512
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x512_S512x512_S8x2048x512_2_0_01_1_n_n_wf : DotDims.WF S8x2048x512 S512x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]

variable [Facts₀]

def dot_S8x2048x512_S512x512_S8x2048x512_2_0_01_1_n_n : DotDims S8x2048x512 S512x512 S8x2048x512 where
  lhsContracting := [2]
  rhsContracting := [0]
  lhsNonContracting := [0, 1]
  rhsNonContracting := [1]
  lhsBatch := []
  rhsBatch := []
  wf := dot_S8x2048x512_S512x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Spec.lean ====
/-
  Single-head attention over the extended reals, stated index by index.

  For x : [B, S, D] and three weight matrices W : [3, D, O], the projections are
    P_j (b, s, o) = ∑ d, x (b, s, d) · W (j, d, o)        (j = 0: queries, 1: keys, 2: values),
  the scaled scores s (b, s, t) = (∑ o, P_0 (b, s, o) · P_1 (b, t, o)) · c, and every row of scores is turned into
  shares: shifted by its maximum (the fold of max from a bottom value b0), exponentiated, and divided by the row's
  sum.  The result is the shares' mix of the value rows,
    out (b, s, o) = ∑ t, share (b, s, t) · P_2 (b, t, o).
  Nothing here needs the entries to be finite: only the shapes of the sums matter.
-/
import Idealize.ShloMosaic.PureOps.Ideal
import Idealize.ShloMosaic.Lib.ValueIdx

noncomputable section

open scoped BigOperators

namespace Cert.AttnSpec

open Idealize.ShloMosaic Idealize.ShloMosaic.ValueIdx

/-! ## One row of scores -/

section Row

variable {T : ℕ}

/-- The largest entry of a row, folded from the bottom value `b0`. -/
def rowMax (b0 : EReal) (sc : Fin T → EReal) : EReal := (Finset.univ : Finset (Fin T)).fold max b0 sc

/-- The fold never falls below the value it starts from, -/
theorem le_rowMax (b0 : EReal) (sc : Fin T → EReal) : b0 ≤ rowMax b0 sc :=
  (Finset.le_fold_max b0).2 (Or.inl le_rfl)

/-- so taking the maximum with that value once more changes nothing. -/
theorem max_rowMax (b0 : EReal) (sc : Fin T → EReal) : max b0 (rowMax b0 sc) = rowMax b0 sc :=
  max_eq_right (le_rowMax b0 sc)

/-- The unnormalized weight of entry `t`: the exponential of its distance to the row's maximum. -/
def weight (b0 : EReal) (sc : Fin T → EReal) (t : Fin T) : EReal := Ideal.exp (sc t - rowMax b0 sc)

/-- The share of entry `t`: its weight over the sum of the row's weights. -/
def share (b0 : EReal) (sc : Fin T → EReal) (t : Fin T) : EReal :=
  Ideal.div (weight b0 sc t) (∑ t' : Fin T, weight b0 sc t')

/-- The shares' mix of a column `v`. -/
def mix (b0 : EReal) (sc : Fin T → EReal) (v : Fin T → EReal) : EReal := ∑ t : Fin T, share b0 sc t * v t

end Row

/-! ## The whole arrays -/

section Whole

variable {B S D O : ℕ}

/-- Projection `j` of row (b, s): its product with weight matrix `j`. -/
def proj (x : (⟨3, ![B, S, D]⟩ : Shape).Idx → EReal) (W : (⟨3, ![3, D, O]⟩ : Shape).Idx → EReal) (j : Fin 3)
    (b : Fin B) (s : Fin S) (o : Fin O) : EReal :=
  ∑ d : Fin D, x (ix3 b s d) * W (ix3 j d o)

/-- The scaled score of query row `s` against key row `t` in batch entry `b`. -/
def score (c : EReal) (x : (⟨3, ![B, S, D]⟩ : Shape).Idx → EReal) (W : (⟨3, ![3, D, O]⟩ : Shape).Idx → EReal)
    (b : Fin B) (s t : Fin S) : EReal :=
  (∑ o : Fin O, proj x W 0 b s o * proj x W 1 b t o) * c

/-- The attention output at (b, s, o). -/
def attn (b0 c : EReal) (x : (⟨3, ![B, S, D]⟩ : Shape).Idx → EReal) (W : (⟨3, ![3, D, O]⟩ : Shape).Idx → EReal)
    (b : Fin B) (s : Fin S) (o : Fin O) : EReal :=
  mix b0 (fun t => score c x W b s t) (fun t => proj x W 2 b t o)

/-- The same as one function of the whole arrays. -/
def attnArr (b0 c : EReal) (x : (⟨3, ![B, S, D]⟩ : Shape).Idx → EReal) (W : (⟨3, ![3, D, O]⟩ : Shape).Idx → EReal) :
    (⟨3, ![B, S, O]⟩ : Shape).Idx → EReal :=
  fun i => attn b0 c x W (i 0) (i 1) (i 2)

theorem attnArr_ix3 (b0 c : EReal) (x : (⟨3, ![B, S, D]⟩ : Shape).Idx → EReal) (W : (⟨3, ![3, D, O]⟩ : Shape).Idx → EReal)
    (b : Fin B) (s : Fin S) (o : Fin O) : attnArr b0 c x W (ix3 b s o) = attn b0 c x W b s o := rfl

end Whole

end Cert.AttnSpec

end
-- ==== Proof.RefAttn.lean ====
/-
  The reference computes the attention of the specification: its result array, read one operation at a time, is
  the specification's whole-array function of the two arguments.

  The three projections are products over the model axis; the scores are a product over the projected axis with the
  batch axis shared, times the scale; the row maximum is a fold of max along the key axis from the bottom value, and
  the further maximum with that same value leaves it unchanged; the rest is pointwise, a row sum from zero, and one
  more product over the key axis.
-/
import proofs.«181976_j30030411333841_2_alg».proof.Proof.Gen.ReferenceIdeal.Read
import proofs.«181976_j30030411333841_2_alg».proof.Proof.Spec
import Idealize.ShloMosaic.PureOps.Reduce
import Idealize.ShloMosaic.PureOps.Ideal.Laws

noncomputable section

open scoped BigOperators

namespace Cert.RefAttn

open Cert.ReferenceIdeal Cert.ReferenceIdeal.Gen Cert.ReferenceIdeal.Read
open Idealize.ShloMosaic Idealize.ShloMosaic.ValueIdx Cert.AttnSpec

/-- The bottom value the row maxima are folded from, and the scale of the scores. -/
abbrev bot0 : EReal := Ideal.ofBits .f32 0xFF800000#32
abbrev scale : EReal := Ideal.ofBits .f32 0x3E000000#32

variable (x : FVec Ideal S8x2048x512 .f32) (W : FVec Ideal S3x512x512 .f32)

/-- The query projection. -/
theorem q_apply (b : Fin 8) (s : Fin 2048) (o : Fin 512) :
    val_main_v2 (F := Ideal) x W (ix3 b s o) = proj x W 0 b s o := by
  rw [val_main_v2_apply]
  unfold proj
  refine Finset.sum_congr rfl fun d _ => ?_
  rw [val_main_v1_apply, val_main_v0_apply]
  have e1 : lidx_main_v2 (ix3 b s o) d = ix3 b s d := funext fun a => Fin.ext (by
    match a with | ⟨0, _⟩ => rfl | ⟨1, _⟩ => rfl | ⟨2, _⟩ => rfl)
  have e2 : idx_main_v0 (idx_main_v1 (ridx_main_v2 (ix3 b s o) d)) = ix3 (0 : Fin 3) d o := funext fun a => Fin.ext (by
    have hd := d.isLt; have ho := o.isLt
    match a with
    | ⟨0, _⟩ => rfl
    | ⟨1, _⟩ => show (d.val * 512 + o.val) / 512 % 512 = d.val; omega
    | ⟨2, _⟩ => show (d.val * 512 + o.val) % 512 = o.val; omega)
  rw [e1, e2]

/-- The key projection. -/
theorem k_apply (b : Fin 8) (s : Fin 2048) (o : Fin 512) :
    val_main_v5 (F := Ideal) x W (ix3 b s o) = proj x W 1 b s o := by
  rw [val_main_v5_apply]
  unfold proj
  refine Finset.sum_congr rfl fun d _ => ?_
  rw [val_main_v4_apply, val_main_v3_apply]
  have e1 : lidx_main_v5 (ix3 b s o) d = ix3 b s d := funext fun a => Fin.ext (by
    match a with | ⟨0, _⟩ => rfl | ⟨1, _⟩ => rfl | ⟨2, _⟩ => rfl)
  have e2 : idx_main_v3 (idx_main_v4 (ridx_main_v5 (ix3 b s o) d)) = ix3 (1 : Fin 3) d o := funext fun a => Fin.ext (by
    have hd := d.isLt; have ho := o.isLt
    match a with
    | ⟨0, _⟩ => rfl
    | ⟨1, _⟩ => show (d.val * 512 + o.val) / 512 % 512 = d.val; omega
    | ⟨2, _⟩ => show (d.val * 512 + o.val) % 512 = o.val; omega)
  rw [e1, e2]

/-- The value projection. -/
theorem v_apply (b : Fin 8) (s : Fin 2048) (o : Fin 512) :
    val_main_v8 (F := Ideal) x W (ix3 b s o) = proj x W 2 b s o := by
  rw [val_main_v8_apply]
  unfold proj
  refine Finset.sum_congr rfl fun d _ => ?_
  rw [val_main_v7_apply, val_main_v6_apply]
  have e1 : lidx_main_v8 (ix3 b s o) d = ix3 b s d := funext fun a => Fin.ext (by
    match a with | ⟨0, _⟩ => rfl | ⟨1, _⟩ => rfl | ⟨2, _⟩ => rfl)
  have e2 : idx_main_v6 (idx_main_v7 (ridx_main_v8 (ix3 b s o) d)) = ix3 (2 : Fin 3) d o := funext fun a => Fin.ext (by
    have hd := d.isLt; have ho := o.isLt
    match a with
    | ⟨0, _⟩ => rfl
    | ⟨1, _⟩ => show (d.val * 512 + o.val) / 512 % 512 = d.val; omega
    | ⟨2, _⟩ => show (d.val * 512 + o.val) % 512 = o.val; omega)
  rw [e1, e2]

/-- The scaled scores. -/
theorem sc_apply (b : Fin 8) (s t : Fin 2048) :
    val_main_v11 (F := Ideal) x W (ix3 b s t) = score scale x W b s t := by
  rw [val_main_v11_apply, val_main_v9_apply, val_main_v10_apply, val_main_cst_apply]
  unfold score
  show (∑ k : Fin 512, _) * _ = _
  refine congrArg (· * scale) (Finset.sum_congr rfl fun o _ => ?_)
  have e1 : lidx_main_v9 (ix3 b s t) o = ix3 b s o := funext fun a => Fin.ext (by
    match a with | ⟨0, _⟩ => rfl | ⟨1, _⟩ => rfl | ⟨2, _⟩ => rfl)
  have e2 : ridx_main_v9 (ix3 b s t) o = ix3 b t o := funext fun a => Fin.ext (by
    match a with | ⟨0, _⟩ => rfl | ⟨1, _⟩ => rfl | ⟨2, _⟩ => rfl)
  rw [e1, e2, q_apply, k_apply]

/-- The row maximum: a fold of max along the key axis from the bottom value. -/
theorem mx_apply (b : Fin 8) (s : Fin 2048) :
    val_main_v12 (F := Ideal) x W (ix2 b s) = rowMax bot0 (fun t => score scale x W b s t) := by
  unfold val_main_v12
  have hr : S8x2048x2048.Reduces [2] S8x2048 := by decide
  refine (Host.reduce_eq_fold_single FloatOps.maximumf _ _ reducesTo_S8x2048x2048_S8x2048_d2 hr h_S_ (ix2 b s)).trans ?_
  have e : (val_main_v11 (F := Ideal) x W ∘ hr.lift (ix2 b s)) = fun (t : Fin 2048) => score scale x W b s t := funext fun (t : Fin 2048) => by
    show val_main_v11 (F := Ideal) x W (hr.lift (ix2 b s) t) = _
    have e3 : hr.lift (ix2 b s) t = ix3 b s t := funext fun a => Fin.ext (by
      match a with | ⟨0, _⟩ => rfl | ⟨1, _⟩ => rfl | ⟨2, _⟩ => rfl)
    rw [e3, sc_apply]
  rw [e]
  rfl

/-- The shifted and exponentiated scores: the weights. -/
theorem w_apply (b : Fin 8) (s t : Fin 2048) :
    val_main_v18 (F := Ideal) x W (ix3 b s t) = weight bot0 (fun t => score scale x W b s t) t := by
  rw [val_main_v18_apply, val_main_v17_apply, val_main_v16_apply, val_main_v15_apply, val_main_v14_apply,
    val_main_v13_apply, val_main_cst_1_apply]
  have e : idx_main_v15 (idx_main_v16 (ix3 b s t)) = ix2 b s := funext fun a => Fin.ext (by
    match a with | ⟨0, _⟩ => rfl | ⟨1, _⟩ => rfl)
  rw [e, mx_apply, sc_apply]
  show Ideal.exp (_ - max bot0 _) = _
  rw [max_rowMax]
  rfl

/-- The shares: each weight over its row's sum. -/
theorem share_apply (b : Fin 8) (s t : Fin 2048) :
    val_main_v22 (F := Ideal) x W (ix3 b s t) = share bot0 (fun t => score scale x W b s t) t := by
  rw [val_main_v22_apply, val_main_v21_apply, val_main_v20_apply, val_main_v19_apply, val_main_cst_2_apply, w_apply]
  have e : idx_main_v20 (idx_main_v21 (ix3 b s t)) = ix2 b s := funext fun a => Fin.ext (by
    match a with | ⟨0, _⟩ => rfl | ⟨1, _⟩ => rfl)
  rw [e]
  unfold share
  show Ideal.div _ (Ideal.ofBits .f32 0x00000000#32 + _) = _
  rw [Ideal.ofBits_zero_f32, zero_add]
  refine congrArg (Ideal.div _) (Finset.sum_congr rfl fun t' _ => ?_)
  have e3 : idx_main_v19 (ix2 b s) t' = ix3 b s t' := funext fun a => Fin.ext (by
    match a with | ⟨0, _⟩ => rfl | ⟨1, _⟩ => rfl | ⟨2, _⟩ => rfl)
  rw [e3, w_apply]

/-- The result at an index. -/
theorem out_apply (b : Fin 8) (s : Fin 2048) (o : Fin 512) :
    val_main_v23 (F := Ideal) x W (ix3 b s o) = attn bot0 scale x W b s o := by
  rw [val_main_v23_apply]
  unfold attn mix
  refine Finset.sum_congr rfl fun t _ => ?_
  have e1 : lidx_main_v23 (ix3 b s o) t = ix3 b s t := funext fun a => Fin.ext (by
    match a with | ⟨0, _⟩ => rfl | ⟨1, _⟩ => rfl | ⟨2, _⟩ => rfl)
  have e2 : ridx_main_v23 (ix3 b s o) t = ix3 b t o := funext fun a => Fin.ext (by
    match a with | ⟨0, _⟩ => rfl | ⟨1, _⟩ => rfl | ⟨2, _⟩ => rfl)
  rw [e1, e2, share_apply, v_apply]

/-- The reference's result array is the specification's function of the arguments. -/
theorem result_eq : val_main_v23 (F := Ideal) x W = attnArr bot0 scale x W := by
  funext i
  obtain ⟨b, s, o, rfl⟩ : ∃ (b : Fin 8) (s : Fin 2048) (o : Fin 512), i = ix3 b s o := ⟨i 0, i 1, i 2, eq_ix3 i⟩
  rw [out_apply, attnArr_ix3]

end Cert.RefAttn

end
-- ==== Proof.KOps.lean ====
/-
  The vector unit's operations of the attention body, read at an index at the ideal values.

  The four products by the matrix unit go into a zero accumulator, so each entry is a plain sum over the contracted
  axis: rows by columns for the projections and for the final mix, rows by rows for the scores (the keys enter
  untransposed).  A reduction along the lanes of a [512, 2048] array is, in row r, the sum or the fold of max over that
  row's 2048 entries; and a column [512] laid out as [512, 1] and spread along the lanes gives every entry of row r the
  column's entry r.
-/
import proofs.«181976_j30030411333841_2_alg».proof.Proof.Gen.KernelIdeal.Skeleton
import proofs.«181976_j30030411333841_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelAttn

open Cert.KernelIdeal Cert.KernelIdeal.Gen Cert.KernelIdeal.Facts₀ Cert.KernelIdeal.Facts
open Idealize.ShloMosaic Idealize.ShloMosaic.ValueIdx Cert.AttnSpec

/-! ## Products into a zero accumulator -/

theorem mm_kv_ln (j : S2048x512.Idx) (c : dot_S2048x512_S512x512_S2048x512_1_0_0_1_n_n.contr.Idx) : (dot_S2048x512_S512x512_S2048x512_1_0_0_1_n_n.lhsIdx j c 0).val = (j 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem mm_kv_rn (j : S2048x512.Idx) (c : dot_S2048x512_S512x512_S2048x512_1_0_0_1_n_n.contr.Idx) : (dot_S2048x512_S512x512_S2048x512_1_0_0_1_n_n.rhsIdx j c 1).val = (j 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl
/-- All 2048 rows of a batch entry by a [512, 512] weight matrix: the key and value projections. -/
theorem mm_kv {φ₁ φ₂ : FTy} (l : FVec Ideal S2048x512 φ₁) (r : FVec Ideal S512x512 φ₂) (p : Fin 2048) (q : Fin 512) :
    matmul dot_S2048x512_S512x512_S2048x512_1_0_0_1_n_n none l r (constant S2048x512 .f32 0x00000000#32) (ix2 p q)
      = ∑ k : Fin 512, l (ix2 p k) * r (ix2 k q) := by
  refine (Ideal.matmul_constant_zero_apply dot_S2048x512_S512x512_S2048x512_1_0_0_1_n_n none l r (ix2 p q)).trans ?_
  rw [← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 p q) ((contrEquiv1 dot_S2048x512_S512x512_S2048x512_1_0_0_1_n_n 512 rfl rfl).symm k) = ix2 p k := funext fun a => Fin.ext (by
    match a with
    | ⟨0, _⟩ => exact mm_kv_ln _ _
    | ⟨1, _⟩ => exact (dot_S2048x512_S512x512_S2048x512_1_0_0_1_n_n.lhsIdx_val_of_single rfl _ _).trans hk)
  have er : dot_S2048x512_S512x512_S2048x512_1_0_0_1_n_n.rhsIdx (ix2 p q) ((contrEquiv1 dot_S2048x512_S512x512_S2048x512_1_0_0_1_n_n 512 rfl rfl).symm k) = ix2 k q := funext fun a => Fin.ext (by
    match a with
    | ⟨0, _⟩ => exact (dot_S2048x512_S512x512_S2048x512_1_0_0_1_n_n.rhsIdx_val_of_single rfl _ _).trans hk
    | ⟨1, _⟩ => exact mm_kv_rn _ _)
  rw [el, er]

theorem mm_q_ln (j : S512x512.Idx) (c : dot_S512x512_S512x512_S512x512_1_0_0_1_n_n.contr.Idx) : (dot_S512x512_S512x512_S512x512_1_0_0_1_n_n.lhsIdx j c 0).val = (j 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem mm_q_rn (j : S512x512.Idx) (c : dot_S512x512_S512x512_S512x512_1_0_0_1_n_n.contr.Idx) : (dot_S512x512_S512x512_S512x512_1_0_0_1_n_n.rhsIdx j c 1).val = (j 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl
/-- A tile of 512 rows by a [512, 512] weight matrix: the query projection. -/
theorem mm_q {φ₁ φ₂ : FTy} (l : FVec Ideal S512x512 φ₁) (r : FVec Ideal S512x512 φ₂) (p : Fin 512) (q : Fin 512) :
    matmul dot_S512x512_S512x512_S512x512_1_0_0_1_n_n none l r (constant S512x512 .f32 0x00000000#32) (ix2 p q)
      = ∑ k : Fin 512, l (ix2 p k) * r (ix2 k q) := by
  refine (Ideal.matmul_constant_zero_apply dot_S512x512_S512x512_S512x512_1_0_0_1_n_n none l r (ix2 p q)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact mm_q_ln _ _
    | ⟨1, _⟩ => exact (dot_S512x512_S512x512_S512x512_1_0_0_1_n_n.lhsIdx_val_of_single rfl _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (dot_S512x512_S512x512_S512x512_1_0_0_1_n_n.rhsIdx_val_of_single rfl _ _).trans hk
    | ⟨1, _⟩ => exact mm_q_rn _ _)
  rw [el, er]

theorem mm_sc_ln (j : S512x2048.Idx) (c : dot_S512x512_S2048x512_S512x2048_1_1_0_0_n_n.contr.Idx) : (dot_S512x512_S2048x512_S512x2048_1_1_0_0_n_n.lhsIdx j c 0).val = (j 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
theorem mm_sc_rn (j : S512x2048.Idx) (c : dot_S512x512_S2048x512_S512x2048_1_1_0_0_n_n.contr.Idx) : (dot_S512x512_S2048x512_S512x2048_1_1_0_0_n_n.rhsIdx j c 0).val = (j 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
/-- Query rows against key rows, both contracted along their last axis: the scores. -/
theorem mm_sc {φ₁ φ₂ : FTy} (l : FVec Ideal S512x512 φ₁) (r : FVec Ideal S2048x512 φ₂) (p : Fin 512) (q : Fin 2048) :
    matmul dot_S512x512_S2048x512_S512x2048_1_1_0_0_n_n none l r (constant S512x2048 .f32 0x00000000#32) (ix2 p q)
      = ∑ k : Fin 512, l (ix2 p k) * r (ix2 q k) := by
  refine (Ideal.matmul_constant_zero_apply dot_S512x512_S2048x512_S512x2048_1_1_0_0_n_n none l r (ix2 p q)).trans ?_
  rw [← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p q) ((contrEquiv1 dot_S512x512_S2048x512_S512x2048_1_1_0_0_n_n 512 rfl rfl).symm k) = ix2 p k := funext fun a => Fin.ext (by
    match a with
    | ⟨0, _⟩ => exact mm_sc_ln _ _
    | ⟨1, _⟩ => exact (dot_S512x512_S2048x512_S512x2048_1_1_0_0_n_n.lhsIdx_val_of_single rfl _ _).trans hk)
  have er : dot_S512x512_S2048x512_S512x2048_1_1_0_0_n_n.rhsIdx (ix2 p q) ((contrEquiv1 dot_S512x512_S2048x512_S512x2048_1_1_0_0_n_n 512 rfl rfl).symm k) = ix2 q k := funext fun a => Fin.ext (by
    match a with
    | ⟨0, _⟩ => exact mm_sc_rn _ _
    | ⟨1, _⟩ => exact (dot_S512x512_S2048x512_S512x2048_1_1_0_0_n_n.rhsIdx_val_of_single rfl _ _).trans hk)
  rw [el, er]

theorem mm_out_ln (j : S512x512.Idx) (c : dot_S512x2048_S2048x512_S512x512_1_0_0_1_n_n.contr.Idx) : (dot_S512x2048_S2048x512_S512x512_1_0_0_1_n_n.lhsIdx j c 0).val = (j 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl
theorem mm_out_rn (j : S512x512.Idx) (c : dot_S512x2048_S2048x512_S512x512_1_0_0_1_n_n.contr.Idx) : (dot_S512x2048_S2048x512_S512x512_1_0_0_1_n_n.rhsIdx j c 1).val = (j 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl
/-- The shares of a tile's rows by the value rows: the mix. -/
theorem mm_out {φ₁ φ₂ : FTy} (l : FVec Ideal S512x2048 φ₁) (r : FVec Ideal S2048x512 φ₂) (p : Fin 512) (q : Fin 512) :
    matmul dot_S512x2048_S2048x512_S512x512_1_0_0_1_n_n none l r (constant S512x512 .f32 0x00000000#32) (ix2 p q)
      = ∑ k : Fin 2048, l (ix2 p k) * r (ix2 k q) := by
  refine (Ideal.matmul_constant_zero_apply dot_S512x2048_S2048x512_S512x512_1_0_0_1_n_n none l r (ix2 p q)).trans ?_
  rw [← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact mm_out_ln _ _
    | ⟨1, _⟩ => exact (dot_S512x2048_S2048x512_S512x512_1_0_0_1_n_n.lhsIdx_val_of_single rfl _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (dot_S512x2048_S2048x512_S512x512_1_0_0_1_n_n.rhsIdx_val_of_single rfl _ _).trans hk
    | ⟨1, _⟩ => exact mm_out_rn _ _)
  rw [el, er]

/-! ## Reductions along the lanes -/

/-- Row `r`'s index with lane `t` put back. -/
theorem lift_row (hr : S512x2048.Reduces [1] S512) (r : Fin 512) (t : Fin 2048) : hr.lift (ix1 r) t = ix2 r t :=
  funext fun a => Fin.ext (by match a with | ⟨0, _⟩ => rfl | ⟨1, _⟩ => rfl)

/-- The sum along the lanes, in row `r`. -/
theorem rowSum_apply (v : FVec Ideal S512x2048 .f32) (hr : S512x2048.Reduces [1] S512) (hφ : FKind.Formats .f32)
    (hacc : (0x00000000#32 : BitVec 32) = FKind.add.neutral .f32 hφ) (r : Fin 512) :
    multiReduction .add [1] S512 v 0x00000000#32 hr hφ hacc (ix1 r) = ∑ t : Fin 2048, v (ix2 r t) := by
  refine (Ideal.multiReduction_add_single v 0x00000000#32 hr hφ hacc (ix1 r)).trans ?_
  exact Finset.sum_congr rfl fun (t : Fin 2048) _ => congrArg v (lift_row hr r t)

/-- The maximum along the lanes, in row `r`: the fold of max from the accumulator's value. -/
theorem rowMax_apply (v : FVec Ideal S512x2048 .f32) (hr : S512x2048.Reduces [1] S512) (hφ : FKind.Formats .f32)
    (hacc : (0xFF800000#32 : BitVec 32) = FKind.maximumf.neutral .f32 hφ) (r : Fin 512) :
    multiReduction .maximumf [1] S512 v 0xFF800000#32 hr hφ hacc (ix1 r)
      = rowMax (Ideal.ofBits .f32 0xFF800000#32) (fun t : Fin 2048 => v (ix2 r t)) := by
  refine (Ideal.multiReduction_maximumf_single v 0xFF800000#32 hr hφ hacc (ix1 r)).trans ?_
  have e : (v ∘ hr.lift (ix1 r)) = fun t : Fin 2048 => v (ix2 r t) :=
    funext fun (t : Fin 2048) => congrArg v (lift_row hr r t)
  rw [e]
  rfl

/-! ## A column spread along the lanes -/

/-- A column [512] laid out as [512, 1] and spread over 2048 lanes: entry (r, t) is the column's entry r. -/
theorem spread_apply {α : Type} (u : S512.Idx → α) (h1 : S512.ShapeCasts S512x1) (h2 : S512x1.Broadcasts S512x2048)
    (r : Fin 512) (t : Fin 2048) :
    broadcastTo S512x2048 (shapeCast S512x1 u h1) h2 (ix2 r t) = u (ix1 r) := by
  refine (broadcastTo_apply (shapeCast S512x1 u h1) h2 (ix2 r t) (ix2 r (0 : Fin 1)) fun ax => ?_).trans ?_
  · match ax with
    | ⟨0, _⟩ => rfl
    | ⟨1, _⟩ => rfl
  · exact shapeCast_apply u h1 _ _ (by
      rw [Shape.rowMajor_val_one, Shape.rowMajor_val_two]
      show r.val = r.val * 1 + 0
      omega)

end Cert.KernelAttn

end
-- ==== Proof.KPay.lean ====
/-
  What the attention body stores, read at an index at the ideal values.

  At a batch entry's first tile the body projects all 2048 rows onto keys and values and keeps both; at every tile it
  projects the tile's 512 rows onto queries, scores them against the kept keys, turns each row of scores into shares,
  and stores the shares' mix of the kept values.  Each stored entry is the specification's expression over the
  loaded blocks.
-/
import proofs.«181976_j30030411333841_2_alg».proof.Proof.KOps

noncomputable section

open scoped BigOperators

namespace Cert.KernelAttn

open Cert.KernelIdeal Cert.KernelIdeal.Gen
open Idealize.ShloMosaic Idealize.ShloMosaic.ValueIdx Cert.AttnSpec

abbrev bot0 : EReal := Ideal.ofBits .f32 0xFF800000#32
abbrev scale : EReal := Ideal.ofBits .f32 0x3E000000#32

/-! ## The kept projections -/

/-- All rows of the batch entry by one weight matrix, as the body computes the keys and the values. -/
def projAll (xb : Vec Ideal S1x2048x512 .f32) (w : Vec Ideal S1x512x512 .f32) : FVec Ideal S2048x512 .bf16 :=
  shapeCast S2048x512
    (truncf .bf16
      (matmul dot_S2048x512_S512x512_S2048x512_1_0_0_1_n_n none (k0_pay1 xb)
        (truncf .bf16 (shapeCast S512x512 w shapeCasts_S1x512x512_S512x512) bitsLt_bf16_f32)
        (constant S2048x512 .f32 0x00000000#32))
      bitsLt_bf16_f32)
    shapeCasts_S2048x512_S2048x512

theorem k0_pay2_eq (xb : Vec Ideal S1x2048x512 .f32) (w : Vec Ideal S1x512x512 .f32) : k0_pay2 xb w = projAll xb w := rfl
theorem k0_pay3_eq (xb : Vec Ideal S1x2048x512 .f32) (w : Vec Ideal S1x512x512 .f32) : k0_pay3 xb w = projAll xb w := rfl

/-- Entry (t, o) of a kept projection: row t of the batch entry by column o of the weight matrix. -/
theorem projAll_apply (xb : Vec Ideal S1x2048x512 .f32) (w : Vec Ideal S1x512x512 .f32) (t : Fin 2048) (o : Fin 512) :
    projAll xb w (ix2 t o) = ∑ d : Fin 512, xb (ix3 (0 : Fin 1) t d) * w (ix3 (0 : Fin 1) d o) := by
  unfold projAll
  rw [shapeCast_self]
  refine (mm_kv _ _ t o).trans ?_
  refine Finset.sum_congr rfl fun d _ => ?_
  unfold k0_pay1
  show shapeCast S2048x512 xb _ (ix2 t d) * shapeCast S512x512 w _ (ix2 d o) = _
  rw [shapeCast_1ab_ab_apply, shapeCast_1ab_ab_apply]

/-! ## A row of scores to shares -/

/-- The body's turn from scores to shares, on the whole [512, 2048] array. -/
def softV (v17 : FVec Ideal S512x2048 .f32) : FVec Ideal S512x2048 .f32 :=
  have v18 : FVec Ideal S512 .f32 := multiReduction .maximumf [1] S512 v17 0xFF800000#32 reduces_S512x2048_S512 (.inl rfl) rfl
  have v20 : FVec Ideal S512x2048 .f32 := broadcastTo S512x2048 (shapeCast S512x1 v18 shapeCasts_S512_S512x1) broadcasts_S512x1_S512x2048
  have v22 : FVec Ideal S512x2048 .f32 := exp (subf v17 v20)
  have v23 : FVec Ideal S512 .f32 := multiReduction .add [1] S512 v22 0x00000000#32 reduces_S512x2048_S512 (.inl rfl) rfl
  have v25 : FVec Ideal S512x2048 .f32 := broadcastTo S512x2048 (shapeCast S512x1 v23 shapeCasts_S512_S512x1) broadcasts_S512x1_S512x2048
  divf v22 v25

/-- Entry (r, t) of the weights. -/
theorem softW_apply (v17 : FVec Ideal S512x2048 .f32) (r : Fin 512) (t : Fin 2048) :
    Idealize.ShloMosaic.exp (subf v17 (broadcastTo S512x2048 (shapeCast S512x1
        (multiReduction .maximumf [1] S512 v17 0xFF800000#32 reduces_S512x2048_S512 (.inl rfl) rfl)
        shapeCasts_S512_S512x1) broadcasts_S512x1_S512x2048)) (ix2 r t)
      = weight bot0 (fun t' : Fin 2048 => v17 (ix2 r t')) t := by
  show Ideal.exp (v17 (ix2 r t) - broadcastTo S512x2048 _ _ (ix2 r t)) = _
  rw [spread_apply]
  exact congrArg (fun z => Ideal.exp (v17 (ix2 r t) - z)) (rowMax_apply v17 _ _ _ r)

/-- Entry (r, t) of the shares. -/
theorem softV_apply (v17 : FVec Ideal S512x2048 .f32) (r : Fin 512) (t : Fin 2048) :
    softV v17 (ix2 r t) = share bot0 (fun t' : Fin 2048 => v17 (ix2 r t')) t := by
  unfold softV
  show Ideal.div _ (broadcastTo S512x2048 _ _ (ix2 r t)) = _
  rw [spread_apply]
  refine (congrArg (Ideal.div _) (rowSum_apply _ _ _ _ r)).trans ?_
  refine (congrArg (Ideal.div · _) (softW_apply v17 r t)).trans ?_
  unfold share
  exact congrArg (Ideal.div _) (Finset.sum_congr rfl fun (t' : Fin 2048) _ => softW_apply v17 r t')

/-! ## The stored tile -/

/-- The tile's query projection. -/
def qTile (xt w0 : Vec Ideal S1x512x512 .f32) : FVec Ideal S512x512 .bf16 :=
  truncf .bf16
    (matmul dot_S512x512_S512x512_S512x512_1_0_0_1_n_n none
      (truncf .bf16 (shapeCast S512x512 xt shapeCasts_S1x512x512_S512x512) bitsLt_bf16_f32)
      (truncf .bf16 (shapeCast S512x512 w0 shapeCasts_S1x512x512_S512x512) bitsLt_bf16_f32)
      (constant S512x512 .f32 0x00000000#32))
    bitsLt_bf16_f32

theorem qTile_apply (xt w0 : Vec Ideal S1x512x512 .f32) (r o : Fin 512) :
    qTile xt w0 (ix2 r o) = ∑ d : Fin 512, xt (ix3 (0 : Fin 1) r d) * w0 (ix3 (0 : Fin 1) d o) := by
  unfold qTile
  refine (mm_q _ _ r o).trans ?_
  refine Finset.sum_congr rfl fun d _ => ?_
  show shapeCast S512x512 xt _ (ix2 r d) * shapeCast S512x512 w0 _ (ix2 d o) = _
  rw [shapeCast_1ab_ab_apply, shapeCast_1ab_ab_apply]

/-- The tile's scaled scores against the kept keys. -/
def scTile (q : FVec Ideal S512x512 .bf16) (ks : FVec Ideal S2048x512 .bf16) : FVec Ideal S512x2048 .f32 :=
  mulf (matmul dot_S512x512_S2048x512_S512x2048_1_1_0_0_n_n none q ks (constant S512x2048 .f32 0x00000000#32))
    (broadcast S512x2048 (Scalar.ofBits .f32 0x3E000000#32))

theorem scTile_apply (q : FVec Ideal S512x512 .bf16) (ks : FVec Ideal S2048x512 .bf16) (r : Fin 512) (t : Fin 2048) :
    scTile q ks (ix2 r t) = (∑ o : Fin 512, q (ix2 r o) * ks (ix2 t o)) * scale := by
  unfold scTile
  show matmul _ none q ks _ (ix2 r t) * _ = _
  rw [mm_sc]
  rfl

/-- The stored tile, from its four loads. -/
theorem k0_pay4_eq (xt w0 : Vec Ideal S1x512x512 .f32) (ks vs : FVec Ideal S2048x512 .bf16) :
    k0_pay4 xt w0 ks vs
      = shapeCast S1x512x512
          (matmul dot_S512x2048_S2048x512_S512x512_1_0_0_1_n_n none
            (truncf .bf16 (softV (scTile (qTile xt w0) ks)) bitsLt_bf16_f32) vs (constant S512x512 .f32 0x00000000#32))
          shapeCasts_S512x512_S1x512x512 := rfl

/-- Entry (r, o) of the stored tile: the shares of row r's scores against the kept keys, mixing column o of the kept
    values. -/
theorem k0_pay4_apply (xt w0 : Vec Ideal S1x512x512 .f32) (ks vs : FVec Ideal S2048x512 .bf16) (u : Fin 1) (r o : Fin 512) :
    k0_pay4 xt w0 ks vs (ix3 u r o)
      = mix bot0
          (fun t : Fin 2048 => (∑ o' : Fin 512,
              (∑ d : Fin 512, xt (ix3 (0 : Fin 1) r d) * w0 (ix3 (0 : Fin 1) d o')) * ks (ix2 t o')) * scale)
          (fun t : Fin 2048 => vs (ix2 t o)) := by
  rw [k0_pay4_eq, shapeCast_ab_1ab_apply]
  refine (mm_out _ _ r o).trans ?_
  unfold mix
  refine Finset.sum_congr rfl fun (t : Fin 2048) _ => ?_
  show softV _ (ix2 r t) * _ = _
  rw [softV_apply]
  have e : (fun t' : Fin 2048 => scTile (qTile xt w0) ks (ix2 r t'))
      = fun t' : Fin 2048 => (∑ o' : Fin 512,
          (∑ d : Fin 512, xt (ix3 (0 : Fin 1) r d) * w0 (ix3 (0 : Fin 1) d o')) * ks (ix2 t' o')) * scale :=
    funext fun (t' : Fin 2048) => by
      rw [scTile_apply]
      refine congrArg (· * scale) (Finset.sum_congr rfl fun (o' : Fin 512) _ => ?_)
      rw [qTile_apply]
  rw [e]

end Cert.KernelAttn

end
-- ==== Proof.KTile.lean ====
/-
  The body's stored values from blocks that agree with the whole arrays.

  If the loaded x block is batch entry b of x, the loaded weight slices are matrices of W, and the kept keys and values
  are batch entry b's projections, then what the body keeps are those projections again and what it stores for tile q
  are rows 512·q … 512·q + 511 of the specification's output in batch entry b.
-/
import proofs.«181976_j30030411333841_2_alg».proof.Proof.KPay

noncomputable section

open scoped BigOperators

namespace Cert.KernelAttn

open Cert.KernelIdeal Cert.KernelIdeal.Gen
open Idealize.ShloMosaic Idealize.ShloMosaic.ValueIdx Cert.AttnSpec

variable (x : FVec Ideal S8x2048x512 .f32) (W : FVec Ideal S3x512x512 .f32)

/-- Row r of tile q, as a row of the batch entry. -/
abbrev tileRow (q : Fin 4) (r : Fin 512) : Fin 2048 := ⟨512 * q.val + r.val, by have := q.isLt; have := r.isLt; omega⟩

/-- A kept projection of blocks that agree with the arrays is the specification's projection. -/
theorem projAll_of (b : Fin 8) (j : Fin 3) (xb : Vec Ideal S1x2048x512 .f32) (w : Vec Ideal S1x512x512 .f32)
    (hxb : ∀ (u : Fin 1) (p : Fin 2048) (d : Fin 512), xb (ix3 u p d) = x (ix3 b p d))
    (hw : ∀ (u : Fin 1) (d o : Fin 512), w (ix3 u d o) = W (ix3 j d o)) (p : Fin 2048) (o : Fin 512) :
    projAll xb w (ix2 p o) = proj x W j b p o := by
  rw [projAll_apply]
  simp only [hxb, hw]
  rfl

/-- The stored tile of blocks that agree with the arrays is the specification's output on the tile's rows. -/
theorem tile_of (b : Fin 8) (q : Fin 4) (xt w0 : Vec Ideal S1x512x512 .f32) (ks vs : FVec Ideal S2048x512 .bf16)
    (hxt : ∀ (u : Fin 1) (r d : Fin 512), xt (ix3 u r d) = x (ix3 b (tileRow q r) d))
    (hw0 : ∀ (u : Fin 1) (d o : Fin 512), w0 (ix3 u d o) = W (ix3 (0 : Fin 3) d o))
    (hks : ∀ (t : Fin 2048) (o : Fin 512), ks (ix2 t o) = proj x W 1 b t o)
    (hvs : ∀ (t : Fin 2048) (o : Fin 512), vs (ix2 t o) = proj x W 2 b t o) (u : Fin 1) (r o : Fin 512) :
    k0_pay4 xt w0 ks vs (ix3 u r o) = attn bot0 scale x W b (tileRow q r) o := by
  rw [k0_pay4_apply]
  simp only [hxt, hw0, hks, hvs]
  rfl

/-! ## Slices of the staged arrays -/

/-- Matrix j of the staged weights, read through a unit-stride rectangle at offset (j, 0, 0). -/
theorem ld_w {Val : EltTy → Type} {e : EltTy} (x1 : S3x512x512.Idx → Val e) (j : Fin 3) (off : Fin 3 → Nat) (hoff : off = ![j.val, 0, 0])
    (inb : ∀ a, off a + S1x512x512.size a ≤ S3x512x512.size a) (u : Fin 1) (d o : Fin 512) :
    View.ld x1 (Rect.unit off S1x512x512.size inb) (ix3 u d o) = x1 (ix3 j d o) := by
  subst hoff
  show x1 _ = x1 _
  refine congrArg x1 (funext fun a => Fin.ext ?_)
  have hu : u.val = 0 := by omega
  match a with
  | ⟨0, _⟩ => show j.val + 1 * u.val = j.val; omega
  | ⟨1, _⟩ => show 0 + 1 * d.val = d.val; omega
  | ⟨2, _⟩ => show 0 + 1 * o.val = o.val; omega

/-- Rows 512·q … of the staged x block, read through a unit-stride rectangle at offset (0, 512·q, 0). -/
theorem ld_x {Val : EltTy → Type} {e : EltTy} (x0 : S1x2048x512.Idx → Val e) (q : Fin 4) (off : Fin 3 → Nat) (hoff : off = ![0, 512 * q.val, 0])
    (inb : ∀ a, off a + S1x512x512.size a ≤ S1x2048x512.size a) (u : Fin 1) (r d : Fin 512) :
    View.ld x0 (Rect.unit off S1x512x512.size inb) (ix3 u r d) = x0 (ix3 (0 : Fin 1) (tileRow q r) d) := by
  subst hoff
  show x0 _ = x0 _
  refine congrArg x0 (funext fun a => Fin.ext ?_)
  have hu : u.val = 0 := by omega
  match a with
  | ⟨0, _⟩ => show 0 + 1 * u.val = 0; omega
  | ⟨1, _⟩ => show 512 * q.val + 1 * r.val = 512 * q.val + r.val; omega
  | ⟨2, _⟩ => show 0 + 1 * d.val = d.val; omega

end Cert.KernelAttn

end
-- ==== Proof.KPieces.lean ====
/-
  What each control case of the body leaves behind, as values of its loads.

  At a batch entry's first tile the body keeps the key and value projections of the whole x block and stores the tile
  computed from those same projections; at the other tiles it keeps what it found and stores the tile computed from
  what it found.
-/
import proofs.«181976_j30030411333841_2_alg».proof.Proof.Gen.KernelIdeal.Frame
import Idealize.ShloMosaic.Lib.Pipeline.Value
import Idealize.ShloMosaic.Lib.Tactic

noncomputable section

namespace Cert.KernelAttn

open Cert.KernelIdeal Cert.KernelIdeal.Gen
open Idealize.ShloMosaic Idealize.ShloMosaic.TcCoe Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Weight matrix j as the body loads it from the staged [3, 512, 512] block. -/
abbrev wKeys (x1 : Vec F S3x512x512 .f32) : Vec F S1x512x512 .f32 :=
  View.ld x1 (Rect.unit ![1, 0, 0] S1x512x512.size inb_S3x512x512_S1x512x512_1_0_0)
abbrev wVals (x1 : Vec F S3x512x512 .f32) : Vec F S1x512x512 .f32 :=
  View.ld x1 (Rect.unit ![2, 0, 0] S1x512x512.size inb_S3x512x512_S1x512x512_2_0_0)
abbrev wQuery (x1 : Vec F S3x512x512 .f32) : Vec F S1x512x512 .f32 :=
  View.ld x1 (Rect.unit ![0, 0, 0] S1x512x512.size inb_S3x512x512_S1x512x512_0_0_0)
/-- The tile's 512 rows as the body loads them from the staged x block. -/
abbrev xTile (i : grid0.Coords) (x0 : Vec F S1x2048x512 .f32) : Vec F S1x512x512 .f32 :=
  View.ld x0 (Rect.unit (k0_off1 i) S1x512x512.size (k0_off1_inb i))

/-- First tile: the kept keys are the key projection of the x block. -/
theorem keptK_A (c : Dev nD) (i : grid0.Coords) (arg2 : Memref sig .tc .vmem S1x2048x512 .f32) (harg2 : arg2.IsWhole) (arg3 : Memref sig .tc .vmem S3x512x512 .f32) (harg3 : arg3.IsWhole) (arg4 : Memref sig .tc .vmem S1x512x512 .f32) (harg4 : arg4.IsWhole) (arg5 : Memref sig .tc .vmem S2048x512 .bf16) (harg5 : arg5.IsWhole) (arg6 : Memref sig .tc .vmem S2048x512 .bf16) (harg6 : arg6.IsWhole) (hc0 : cond0_0 i)
    (x0 : Vec F S1x2048x512 .f32) (x1 : Vec F S3x512x512 .f32) :
    sout0_A_0 c i arg2 harg2 arg3 harg3 arg4 harg4 arg5 harg5 arg6 harg6 hc0 x0 x1 = k0_pay2 x0 (wKeys x1) := by
  unfold sout0_A_0
  rw [View.read_writes_eq_canon _ _ _ (scover0_A_0 c i arg2 harg2 arg3 harg3 arg4 harg4 arg5 harg5 arg6 harg6 hc0 x0 x1)]
  unfold kernelRun0_A
  dsimp only
  sl_unfold_words
  rw [View.canon_unit_zero hz2]
  simp only [View.readAt_eq_ld, harg2.read_unread, harg3.read_unread, View.ld_unit_zero (S := S1x2048x512) hz3]
  all_goals rfl

/-- First tile: the kept values are the value projection of the x block. -/
theorem keptV_A (c : Dev nD) (i : grid0.Coords) (arg2 : Memref sig .tc .vmem S1x2048x512 .f32) (harg2 : arg2.IsWhole) (arg3 : Memref sig .tc .vmem S3x512x512 .f32) (harg3 : arg3.IsWhole) (arg4 : Memref sig .tc .vmem S1x512x512 .f32) (harg4 : arg4.IsWhole) (arg5 : Memref sig .tc .vmem S2048x512 .bf16) (harg5 : arg5.IsWhole) (arg6 : Memref sig .tc .vmem S2048x512 .bf16) (harg6 : arg6.IsWhole) (hc0 : cond0_0 i)
    (x0 : Vec F S1x2048x512 .f32) (x1 : Vec F S3x512x512 .f32) :
    sout0_A_1 c i arg2 harg2 arg3 harg3 arg4 harg4 arg5 harg5 arg6 harg6 hc0 x0 x1 = k0_pay3 x0 (wVals x1) := by
  unfold sout0_A_1
  rw [View.read_writes_eq_canon _ _ _ (scover0_A_1 c i arg2 harg2 arg3 harg3 arg4 harg4 arg5 harg5 arg6 harg6 hc0 x0 x1)]
  unfold kernelRun0_A
  dsimp only
  sl_unfold_words
  rw [View.canon_unit_zero hz2]
  simp only [View.readAt_eq_ld, harg2.read_unread, harg3.read_unread, View.ld_unit_zero (S := S1x2048x512) hz3]
  all_goals rfl

/-- First tile: the stored tile, computed from the projections just kept. -/
theorem tile_A (c : Dev nD) (i : grid0.Coords) (arg2 : Memref sig .tc .vmem S1x2048x512 .f32) (harg2 : arg2.IsWhole) (arg3 : Memref sig .tc .vmem S3x512x512 .f32) (harg3 : arg3.IsWhole) (arg4 : Memref sig .tc .vmem S1x512x512 .f32) (harg4 : arg4.IsWhole) (arg5 : Memref sig .tc .vmem S2048x512 .bf16) (harg5 : arg5.IsWhole) (arg6 : Memref sig .tc .vmem S2048x512 .bf16) (harg6 : arg6.IsWhole) (hc0 : cond0_0 i)
    (x0 : Vec F S1x2048x512 .f32) (x1 : Vec F S3x512x512 .f32) :
    out0_A_2 c i arg2 harg2 arg3 harg3 arg4 harg4 arg5 harg5 arg6 harg6 hc0 x0 x1
      = k0_pay4 (xTile i x0) (wQuery x1) (k0_pay2 x0 (wKeys x1)) (k0_pay3 x0 (wVals x1)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_unit_zero hz3]
  simp only [View.readAt_eq_ld, harg2.read_unread, harg3.read_unread, View.ld_unit_zero (S := S1x2048x512) hz3,
    View.readCov_unit_zero (S := S2048x512) _ hz2]
  all_goals rfl

/-- Later tiles: the stored tile, computed from the projections found. -/
theorem tile_B (c : Dev nD) (i : grid0.Coords) (arg2 : Memref sig .tc .vmem S1x2048x512 .f32) (harg2 : arg2.IsWhole) (arg3 : Memref sig .tc .vmem S3x512x512 .f32) (harg3 : arg3.IsWhole) (arg4 : Memref sig .tc .vmem S1x512x512 .f32) (harg4 : arg4.IsWhole) (arg5 : Memref sig .tc .vmem S2048x512 .bf16) (harg5 : arg5.IsWhole) (arg6 : Memref sig .tc .vmem S2048x512 .bf16) (harg6 : arg6.IsWhole) (hc0 : ¬cond0_0 i)
    (x0 : Vec F S1x2048x512 .f32) (x1 : Vec F S3x512x512 .f32) (xs0 xs1 : Vec F S2048x512 .bf16) :
    out0_B_2 c i arg2 harg2 arg3 harg3 arg4 harg4 arg5 harg5 arg6 harg6 hc0 x0 x1 xs0 xs1 = k0_pay4 (xTile i x0) (wQuery x1) xs0 xs1 := by
  unfold out0_B_2
  rw [View.read_writes_eq_canon _ _ _ (cover0_B_2 c i arg2 harg2 arg3 harg3 arg4 harg4 arg5 harg5 arg6 harg6 hc0 x0 x1 xs0 xs1)]
  unfold kernelRun0_B
  dsimp only
  rw [View.canon_unit_zero hz3]
  simp only [View.readAt_eq_ld, harg2.read_unread, harg3.read_unread, harg5.read_unread, harg6.read_unread,
    View.ld_unit_zero (S := S2048x512) hz2]
  all_goals rfl

end Cert.KernelAttn

end
-- ==== Proof.KPoints.lean ====
/-
  The kernel's result array is the specification's attention of its two arguments.

  The grid runs over batch entries b = 0 … 7 and, inside each, over four tiles of 512 query rows; point n is batch
  entry n / 4, tile n % 4.  The x window's block at any point of batch entry b is x (b, ·, ·) whole, the weight window's
  block is W whole.  By induction on the point: after point n the kept keys and values are batch entry n / 4's key and
  value projections (made afresh at the entry's first tile, found again at the others), and the tile just stored is
  rows 512·(n % 4) … of the specification's output in that batch entry.  Each point's tile is written back to its own
  block (n / 4, n % 4, 0) of the result array, and the 32 blocks cover the array.
-/
import proofs.«181976_j30030411333841_2_alg».proof.Proof.Gen.KernelIdeal.Value
import proofs.«181976_j30030411333841_2_alg».proof.Proof.KTile
import proofs.«181976_j30030411333841_2_alg».proof.Proof.KPieces

noncomputable section

open scoped BigOperators

namespace Cert.KernelAttn

open Cert.KernelIdeal Cert.KernelIdeal.Gen
open Idealize.ShloMosaic Idealize.ShloMosaic.TcCoe Idealize.SL.Sem Idealize.ShloMosaic.ValueIdx Cert.AttnSpec
open Idealize.ShloMosaic.Pipeline (Dat)

variable (m : (ℓ : Loc nD τ sig) → Buf (Elt Ideal) ℓ) (ρ : Dev nD → PrngReg)

/-- The two arguments as the launch finds them. -/
abbrev X (c : Dev nD) : FVec Ideal S8x2048x512 .f32 := m ((c : Thread nD τ).loc main_arg0)
abbrev Wt (c : Dev nD) : FVec Ideal S3x512x512 .f32 := m ((c : Thread nD τ).loc main_arg1)

theorem hN : cfg0.N = 32 := N_0

/-- The batch entry and the tile of point n. -/
def bOf (n : ℕ) (h : n < cfg0.N) : Fin 8 := ⟨n / 4, by have := hN; omega⟩
def qOf (n : ℕ) : Fin 4 := ⟨n % 4, Nat.mod_lt _ (by decide)⟩

/-- The printed index maps and the tile coordinate, decided over the 32 points. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0
    ∧ ((grid0.coords t) 1).val = t.val % 4 :=
  (by decide +kernel : ∀ t : Fin grid0.N, _)

/-! ## The input blocks -/

/-- The x window's block at point t is batch entry t / 4 of x. -/
theorem xblk_apply (c : Dev nD) (t : Fin cfg0.N) (u : Fin 1) (p : Fin 2048) (d : Fin 512) :
    (iblk m c 0 t : Vec Ideal S1x2048x512 .f32) (ix3 u p d) = X m c (ix3 (bOf t.val t.isLt) p d) := by
  obtain ⟨e0, e1, e2, -⟩ := idx_facts t
  have hu : u.val = 0 := by omega
  unfold iblk
  rw [View.read_apply]
  show V m c main_arg0 _ = m ((c : Thread nD τ).loc main_arg0) _
  refine congrArg (m ((c : Thread nD τ).loc main_arg0)) (funext fun a => Fin.ext ?_)
  match a with
  | ⟨0, _⟩ => show win0_0.index t (0 : Fin 3) * 1 + 1 * u.val = t.val / 4; omega
  | ⟨1, _⟩ => show win0_0.index t (1 : Fin 3) * 2048 + 1 * p.val = p.val; omega
  | ⟨2, _⟩ => show win0_0.index t (2 : Fin 3) * 512 + 1 * d.val = d.val; omega

/-- The weight window's block at any point is W. -/
theorem wblk_apply (c : Dev nD) (t : Fin cfg0.N) (j : Fin 3) (d o : Fin 512) :
    (iblk m c 1 t : Vec Ideal S3x512x512 .f32) (ix3 j d o) = Wt m c (ix3 j d o) := by
  obtain ⟨-, -, -, e3, e4, e5, -⟩ := idx_facts t
  unfold iblk
  rw [View.read_apply]
  show V m c main_arg1 _ = m ((c : Thread nD τ).loc main_arg1) _
  refine congrArg (m ((c : Thread nD τ).loc main_arg1)) (funext fun a => Fin.ext ?_)
  match a with
  | ⟨0, _⟩ => show win0_1.index t (0 : Fin 3) * 3 + 1 * j.val = j.val; omega
  | ⟨1, _⟩ => show win0_1.index t (1 : Fin 3) * 512 + 1 * d.val = d.val; omega
  | ⟨2, _⟩ => show win0_1.index t (2 : Fin 3) * 512 + 1 * o.val = o.val; omega

theorem wKeys_blk (c : Dev nD) (t : Fin cfg0.N) (u : Fin 1) (d o : Fin 512) :
    wKeys (iblk m c 1 t : Vec Ideal S3x512x512 .f32) (ix3 u d o) = Wt m c (ix3 (1 : Fin 3) d o) :=
  (ld_w (iblk m c 1 t : Vec Ideal S3x512x512 .f32) (1 : Fin 3) _ rfl _ u d o).trans (wblk_apply m c t 1 d o)
theorem wVals_blk (c : Dev nD) (t : Fin cfg0.N) (u : Fin 1) (d o : Fin 512) :
    wVals (iblk m c 1 t : Vec Ideal S3x512x512 .f32) (ix3 u d o) = Wt m c (ix3 (2 : Fin 3) d o) :=
  (ld_w (iblk m c 1 t : Vec Ideal S3x512x512 .f32) (2 : Fin 3) _ rfl _ u d o).trans (wblk_apply m c t 2 d o)
theorem wQuery_blk (c : Dev nD) (t : Fin cfg0.N) (u : Fin 1) (d o : Fin 512) :
    wQuery (iblk m c 1 t : Vec Ideal S3x512x512 .f32) (ix3 u d o) = Wt m c (ix3 (0 : Fin 3) d o) :=
  (ld_w (iblk m c 1 t : Vec Ideal S3x512x512 .f32) (0 : Fin 3) _ rfl _ u d o).trans (wblk_apply m c t 0 d o)

/-- The rows the body loads for its tile at point t are rows 512·(t % 4) … of batch entry t / 4. -/
theorem xTile_blk (c : Dev nD) (t : Fin cfg0.N) (u : Fin 1) (r d : Fin 512) :
    xTile (grid0.coords t) (iblk m c 0 t : Vec Ideal S1x2048x512 .f32) (ix3 u r d)
      = X m c (ix3 (bOf t.val t.isLt) (tileRow (qOf t.val) r) d) := by
  obtain ⟨-, -, -, -, -, -, -, -, -, e9⟩ := idx_facts t
  have hoff : k0_off1 (grid0.coords t) = ![0, 512 * (qOf t.val).val, 0] := by
    rw [k0_off1_eq, e9]; rfl
  exact (ld_x (iblk m c 0 t : Vec Ideal S1x2048x512 .f32) (qOf t.val) _ hoff _ u r d).trans
    (xblk_apply m c t 0 (tileRow (qOf t.val) r) d)

/-! ## Point by point -/

/-- What holds after point n: the kept keys and values are batch entry n / 4's projections, and the tile just stored is
    the specification's output on rows 512·(n % 4) … of that batch entry. -/
def After (c : Dev nD) (n : ℕ) (h : n < cfg0.N) : Prop :=
  (∀ (p : Fin 2048) (o : Fin 512), (outsAt0 m c n h).2.1 (ix2 p o) = proj (X m c) (Wt m c) 1 (bOf n h) p o)
  ∧ (∀ (p : Fin 2048) (o : Fin 512), (outsAt0 m c n h).2.2 (ix2 p o) = proj (X m c) (Wt m c) 2 (bOf n h) p o)
  ∧ (∀ (u : Fin 1) (r o : Fin 512),
      (outsAt0 m c n h).1 (ix3 u r o) = attn bot0 scale (X m c) (Wt m c) (bOf n h) (tileRow (qOf n) r) o)

/-- The projections the body makes at a batch entry's first tile. -/
theorem freshK (c : Dev nD) (t : Fin cfg0.N) (p : Fin 2048) (o : Fin 512) :
    k0_pay2 (iblk m c 0 t : Vec Ideal S1x2048x512 .f32) (wKeys (iblk m c 1 t : Vec Ideal S3x512x512 .f32)) (ix2 p o)
      = proj (X m c) (Wt m c) 1 (bOf t.val t.isLt) p o :=
  projAll_of (X m c) (Wt m c) (bOf t.val t.isLt) 1 (iblk m c 0 t) (wKeys (iblk m c 1 t))
    (fun u p d => xblk_apply m c t u p d) (fun u d o => wKeys_blk m c t u d o) p o
theorem freshV (c : Dev nD) (t : Fin cfg0.N) (p : Fin 2048) (o : Fin 512) :
    k0_pay3 (iblk m c 0 t : Vec Ideal S1x2048x512 .f32) (wVals (iblk m c 1 t : Vec Ideal S3x512x512 .f32)) (ix2 p o)
      = proj (X m c) (Wt m c) 2 (bOf t.val t.isLt) p o :=
  projAll_of (X m c) (Wt m c) (bOf t.val t.isLt) 2 (iblk m c 0 t) (wVals (iblk m c 1 t))
    (fun u p d => xblk_apply m c t u p d) (fun u d o => wVals_blk m c t u d o) p o

/-- A batch entry's first tile. -/
theorem after_first (c : Dev nD) (t : Fin cfg0.N) (h0 : t.val % 4 = 0) : After m c t.val t.isLt := by
  have hA := outsAt0_A m c t h0
  refine ⟨fun p o => ?_, fun p o => ?_, fun u r o => ?_⟩
  · rw [hA]; dsimp only
    exact (congrFun (keptK_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)) (ix2 p o)).trans
      (freshK m c t p o)
  · rw [hA]; dsimp only
    exact (congrFun (keptV_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)) (ix2 p o)).trans
      (freshV m c t p o)
  · rw [hA]; dsimp only
    refine (congrFun (tile_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (iblk m c 0 t) (iblk m c 1 t)) (ix3 u r o)).trans ?_
    exact tile_of (X m c) (Wt m c) (bOf t.val t.isLt) (qOf t.val) (xTile (grid0.coords t) (iblk m c 0 t))
      (wQuery (iblk m c 1 t)) (k0_pay2 (iblk m c 0 t) (wKeys (iblk m c 1 t))) (k0_pay3 (iblk m c 0 t) (wVals (iblk m c 1 t)))
      (fun u r d => xTile_blk m c t u r d) (fun u d o => wQuery_blk m c t u d o)
      (fun p o => freshK m c t p o) (fun p o => freshV m c t p o) u r o

/-- A later tile of the batch entry, over what the point before left. -/
theorem after_later (c : Dev nD) (t : Fin cfg0.N) (h0 : ¬t.val % 4 = 0)
    (hprev : After m c (t.val - 1) (Nat.lt_of_le_of_lt (Nat.sub_le _ _) t.isLt)) : After m c t.val t.isLt := by
  have hB := outsAt0_B m c t h0
  obtain ⟨hK, hV, -⟩ := hprev
  have hb : bOf (t.val - 1) (Nat.lt_of_le_of_lt (Nat.sub_le _ _) t.isLt) = bOf t.val t.isLt :=
    Fin.ext (by show (t.val - 1) / 4 = t.val / 4; omega)
  rw [hb] at hK hV
  refine ⟨fun p o => ?_, fun p o => ?_, fun u r o => ?_⟩
  · rw [hB]; dsimp only
    exact hK p o
  · rw [hB]; dsimp only
    exact hV p o
  · rw [hB]; dsimp only
    refine (congrFun (tile_B (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (iblk m c 0 t) (iblk m c 1 t)
      (outsAt0 m c (t.val - 1) (Nat.lt_of_le_of_lt (Nat.sub_le _ _) t.isLt)).2.1
      (outsAt0 m c (t.val - 1) (Nat.lt_of_le_of_lt (Nat.sub_le _ _) t.isLt)).2.2) (ix3 u r o)).trans ?_
    exact tile_of (X m c) (Wt m c) (bOf t.val t.isLt) (qOf t.val) (xTile (grid0.coords t) (iblk m c 0 t))
      (wQuery (iblk m c 1 t)) _ _
      (fun u r d => xTile_blk m c t u r d) (fun u d o => wQuery_blk m c t u d o) hK hV u r o

/-- After every point. -/
theorem after_all (c : Dev nD) : ∀ (n : ℕ) (h : n < cfg0.N), After m c n h
  | 0, h => after_first m c ⟨0, h⟩ rfl
  | n + 1, h => by
    by_cases h0 : (n + 1) % 4 = 0
    · exact after_first m c ⟨n + 1, h⟩ h0
    · exact after_later m c ⟨n + 1, h⟩ h0 (after_all c n (Nat.lt_of_succ_lt h))

/-! ## From blocks to the array -/

/-- The result array as one function of the arguments. -/
abbrev G (c : Dev nD) : FVec Ideal S8x2048x512 .f32 := attnArr bot0 scale (X m c) (Wt m c)

/-- What point t writes back is block t of that function. -/
theorem flushed_eq (c : Dev nD) (t : Fin cfg0.N) :
    (dats m 0 c).flushed 2 t = ((cfg0.win 2).blk t).view.read (Elt Ideal) (G m c) := by
  rw [Cert.KernelIdeal.Value.flushed2]
  obtain ⟨-, -, -, -, -, -, e6, e7, e8, -⟩ := idx_facts t
  refine funext fun (j : S1x512x512.Idx) => ?_
  obtain ⟨u, r, o, rfl⟩ : ∃ (u : Fin 1) (r o : Fin 512), j = ix3 u r o := ⟨j 0, j 1, j 2, eq_ix3 j⟩
  show (outsAt0 m c t.val t.isLt).1 (ix3 u r o) = G m c (((cfg0.win 2).blk t).view.emb (ix3 u r o))
  rw [(after_all m c t.val t.isLt).2.2 u r o]
  have he : ((cfg0.win 2).blk t).view.emb (ix3 u r o) = ix3 (bOf t.val t.isLt) (tileRow (qOf t.val) r) o := by
    funext a; apply Fin.ext
    have hu : u.val = 0 := by omega
    match a with
    | ⟨0, _⟩ => show win0_2.index t (0 : Fin 3) * 1 + 1 * u.val = t.val / 4; omega
    | ⟨1, _⟩ => show win0_2.index t (1 : Fin 3) * 512 + 1 * r.val = 512 * (t.val % 4) + r.val; omega
    | ⟨2, _⟩ => show win0_2.index t (2 : Fin 3) * 512 + 1 * o.val = o.val; omega
  rw [he]
  rfl

/-- An index of the array is in point t's block iff each coordinate is in the block's range on its axis. -/
theorem mem_blk (t : Fin cfg0.N) (i : S8x2048x512.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v0).slice (win0_2.rect t)).set ↔ _
  rw [View.set_slice_whole, Rect.mem_set_unit]
  exact Iff.rfl

/-- The result array after the run. -/
theorem final (c : Dev nD) : (dats m 0 c).arrAt 2 cfg0.N = G m c :=
  (dats m 0 c).arrAt_eq_of_cover 2 (G m c) (fun t _ => flushed_eq m c t) fun i => by
    have h0 : (i 0).val < 8 := (i 0).isLt
    have h1 : (i 1).val < 2048 := (i 1).isLt
    have h2 : (i 2).val < 512 := (i 2).isLt
    have hn : 4 * (i 0).val + (i 1).val / 512 < cfg0.N := by have := hN; omega
    obtain ⟨-, -, -, -, -, -, e6, e7, e8, -⟩ := idx_facts ⟨4 * (i 0).val + (i 1).val / 512, hn⟩
    refine ⟨⟨4 * (i 0).val + (i 1).val / 512, hn⟩, flush0_2 _, ?_⟩
    rw [mem_blk]
    intro a
    match a with
    | ⟨0, _⟩ =>
      show win0_2.index ⟨4 * (i 0).val + (i 1).val / 512, hn⟩ (0 : Fin 3) * 1 ≤ (i 0).val
        ∧ (i 0).val < win0_2.index ⟨4 * (i 0).val + (i 1).val / 512, hn⟩ (0 : Fin 3) * 1 + 1
      rw [e6]; dsimp only; omega
    | ⟨1, _⟩ =>
      show win0_2.index ⟨4 * (i 0).val + (i 1).val / 512, hn⟩ (1 : Fin 3) * 512 ≤ (i 1).val
        ∧ (i 1).val < win0_2.index ⟨4 * (i 0).val + (i 1).val / 512, hn⟩ (1 : Fin 3) * 512 + 512
      rw [e7]; dsimp only; omega
    | ⟨2, _⟩ =>
      show win0_2.index ⟨4 * (i 0).val + (i 1).val / 512, hn⟩ (2 : Fin 3) * 512 ≤ (i 2).val
        ∧ (i 2).val < win0_2.index ⟨4 * (i 0).val + (i 1).val / 512, hn⟩ (2 : Fin 3) * 512 + 512
      rw [e8]; omega

/-- The run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelAttn

end
-- ==== Proof.lean ====
/-
  Fused single-head attention against its plain reference, over the extended reals.

  Both programs take x : [8, 2048, 512] and three weight matrices W : [3, 512, 512].  With
    P_j (b, s, o) = ∑ d, x (b, s, d) · W (j, d, o)
  for the queries (j = 0), keys (j = 1) and values (j = 2), the scaled scores are
    s (b, s, t) = (∑ o, P_0 (b, s, o) · P_1 (b, t, o)) · 1/8,
  every row of scores is shifted by its maximum, exponentiated and divided by its sum, and the result is
    out (b, s, o) = ∑ t, share (b, s, t) · P_2 (b, t, o).

  The kernel walks a grid of 8 batch entries by 4 tiles of 512 query rows.  At a batch entry's first tile it projects
  all 2048 rows onto keys and values once and keeps them; at each tile it projects the tile's rows onto queries,
  scores them against the kept keys, and stores the shares' mix of the kept values into that tile's block of the
  result.  The reference computes the same sums on whole arrays.  At the ideal values a change of float format is the
  identity, a product into a zero accumulator and the host's general product are the same finite sums, a reduction
  along the lanes and the host's reduction are the same sum or the same fold of max, and the reference's further
  maximum with the bottom value changes nothing because a fold of max never falls below the value it starts from.
  So both results are one function of the arguments, entry by entry; no entry needs to be finite for that, only the
  shapes of the sums matter.  The idealization rewrote no operation, so it preserves the kernel trivially.
-/
import proofs.«181976_j30030411333841_2_alg».proof.Defs
import proofs.«181976_j30030411333841_2_alg».proof.Proof.Gen.Kernel
import proofs.«181976_j30030411333841_2_alg».proof.Proof.Gen.Kernel.Skeleton
import proofs.«181976_j30030411333841_2_alg».proof.Proof.Gen.Kernel.Launch
import proofs.«181976_j30030411333841_2_alg».proof.Proof.Gen.Kernel.Points
import proofs.«181976_j30030411333841_2_alg».proof.Proof.Gen.Kernel.Frame
import proofs.«181976_j30030411333841_2_alg».proof.Proof.Gen.KernelIdeal
import proofs.«181976_j30030411333841_2_alg».proof.Proof.Gen.KernelIdeal.Skeleton
import proofs.«181976_j30030411333841_2_alg».proof.Proof.Gen.KernelIdeal.Launch
import proofs.«181976_j30030411333841_2_alg».proof.Proof.Gen.KernelIdeal.Points
import proofs.«181976_j30030411333841_2_alg».proof.Proof.Gen.KernelIdeal.Frame
import proofs.«181976_j30030411333841_2_alg».proof.Proof.Gen.KernelIdeal.Value
import proofs.«181976_j30030411333841_2_alg».proof.Proof.Gen.ReferenceIdeal
import proofs.«181976_j30030411333841_2_alg».proof.Proof.Gen.ReferenceIdeal.Run
import proofs.«181976_j30030411333841_2_alg».proof.Proof.Gen.ReferenceIdeal.Read
import proofs.«181976_j30030411333841_2_alg».proof.Proof.Gen.Pre_finite_inputs
import proofs.«181976_j30030411333841_2_alg».proof.Proof.RefAttn
import proofs.«181976_j30030411333841_2_alg».proof.Proof.KPoints
import Idealize.ShloMosaic.Adequacy
import Idealize.ShloMosaic.Init

noncomputable section

namespace Cert.Proof

open Idealize.ShloMosaic Idealize.SL.Sem

/-- Each program runs to the end without a fault and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From arguments that agree, the kernel's result array and the reference's are the same attention of them. -/
theorem algebraic : Cert.algebraic_KernelIdeal_ReferenceIdeal := by
  intro m ρ m' ρ' _ hagree
  refine ⟨_, Cert.KernelAttn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.RefAttn.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
